-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x4096, .bf16⟩
  | .hbm, ⟨5, _⟩ => ⟨S1x4096, .f32⟩
  | .hbm, ⟨6, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What each control case of the kernel body leaves behind, as a value.

  The body runs in one of three cases, by the position `k` of the grid point along the contraction axis:
    * first step (`k = 0`): the accumulator is reset to the zero block, then the step's partial product is added;
    * middle steps (`0 < k < 7`): the step's partial product is added to what the step before left;
    * last step (`k = 7`): the same, and the output block is stored as the accumulator plus twice the bias row.
  Each lemma below reads the stores a case performs back as one function of the blocks the case loads: `step` is the
  accumulator update (accumulator, plus the product of the two input blocks contracted along their second axis, into a
  zero start) and `emit` is the output store (accumulator plus twice the broadcast bias row). They hold for every
  interpretation of the float operations.
-/
import proofs.«159209_j21251498180720_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The accumulator update of one step: `acc + x · wᵀ` over the step's two input blocks. -/
abbrev step (x w : Vec F S1024x512 .bf16) (acc : Vec F S1024x1024 .f32) : Vec F S1024x1024 .f32 := k0_pay2 x w acc

/-- The zero block the first step starts from. -/
abbrev zeroBlock : Vec F S1024x1024 .f32 := k0_pay1

/-- The output block: `acc + 2 · bias`, the bias row broadcast down the rows. -/
abbrev emit (bias : Vec F S1x1024 .f32) (acc : Vec F S1024x1024 .f32) : Vec F S1024x1024 .f32 := k0_pay3 bias acc

/-- A middle step leaves `step x w acc` in the accumulator, `acc` being what the step before left. -/
theorem acc_middle (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 x1 : Vec F S1024x512 .bf16) (x2 : Vec F S1x1024 .f32) (xs0 : Vec F S1024x1024 .f32) :
    sout0_B_0 c i a3 h3 a4 h4 a5 h5 a6 h6 a7 h7 hc0 hc1 x0 x1 x2 xs0 = step x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero zero_offsets]
  simp only [View.readAt_eq_ld, h3.read_unread, h4.read_unread, h7.read_unread,
    View.ld_unit_zero (S := S1024x512) zero_offsets, View.ld_unit_zero (S := S1024x1024) zero_offsets]

/-- The last step leaves the same in the accumulator … -/
theorem acc_last (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x512 .bf16) (x2 : Vec F S1x1024 .f32) (xs0 : Vec F S1024x1024 .f32) :
    sout0_C_0 c i a3 h3 a4 h4 a5 h5 a6 h6 a7 h7 hc0 hc1 x0 x1 x2 xs0 = step x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zero_offsets]
  simp only [View.readAt_eq_ld, h3.read_unread, h4.read_unread, h5.read_unread, h7.read_unread,
    View.ld_unit_zero (S := S1024x512) zero_offsets, View.ld_unit_zero (S := S1024x1024) zero_offsets,
    View.ld_unit_zero (S := S1x1024) zero_offsets]

/-- … and stores `emit bias (step x w acc)` as the output block: the accumulator is read back after its update. -/
theorem out_last (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x512 .bf16) (x2 : Vec F S1x1024 .f32) (xs0 : Vec F S1024x1024 .f32) :
    out0_C_3 c i a3 h3 a4 h4 a5 h5 a6 h6 a7 h7 hc0 hc1 x0 x1 x2 xs0 = emit x2 (step x0 x1 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zero_offsets, View.readCov_unit_zero (S := S1024x1024) _ zero_offsets]
  simp only [View.readAt_eq_ld, h3.read_unread, h4.read_unread, h5.read_unread, h7.read_unread,
    View.ld_unit_zero (S := S1024x512) zero_offsets, View.ld_unit_zero (S := S1024x1024) zero_offsets,
    View.ld_unit_zero (S := S1x1024) zero_offsets]

/-- The first step resets the accumulator and then updates it: it leaves `step x w 0`, whatever the accumulator held. -/
theorem acc_first (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 x1 : Vec F S1024x512 .bf16) (x2 : Vec F S1x1024 .f32) :
    sout0_A_0 c i a3 h3 a4 h4 a5 h5 a6 h6 a7 h7 hc0 hc1 x0 x1 x2 = step x0 x1 zeroBlock := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, h5.read_unread, h7.read_unread,
    View.ld_unit_zero (S := S1024x512) zero_offsets, View.ld_unit_zero (S := S1024x1024) zero_offsets,
    View.ld_unit_zero (S := S1x1024) zero_offsets]

end Cert.KernelIdeal.Pieces

end
-- ==== Proof.Payload.lean ====
/-
  The three values the kernel body stores, read at one entry `(p, q)` of a 1024 × 1024 block, over the extended reals:

    * the zero block is `0` everywhere;
    * one accumulation step is `acc (p, q) + ∑ kk < 512, x (p, kk) · w (q, kk)` — the matrix unit's product of the two
      1024 × 512 input blocks, both contracted along their second axis, started from zero, added to the accumulator;
    * the output is `acc (p, q) + 2 · bias (0, q)` — the 1 × 1024 bias row broadcast down the rows, doubled, added.

  The changes of float format in the body are the identity on extended reals, and the casts between equal shapes are
  the identity on any values, so nothing else is left of the body's text.
-/
import proofs.«159209_j21251498180720_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payload

open Cert.KernelIdeal Cert.KernelIdeal.Gen

/-- The matrix product's dimension record: both operands contracted along axis 1, rows of the left operand and rows of
    the right operand indexing the result. -/
abbrev dims : DotDims S1024x512 S1024x512 S1024x1024 := dot_S1024x512_S1024x512_S1024x1024_1_1_0_0_n_n

/-! ### The operand indices of the product at result entry `j` and contraction position `k` -/

theorem lhs_row (j : S1024x1024.Idx) (k : dims.contr.Idx) : (dims.lhsIdx j k 0).val = (j 0).val := by
  unfold DotDims.lhsIdx
  rw [dif_neg (show ¬(0 : Fin S1024x512.rank) ∈ dims.lhsBatch by decide),
    dif_pos (show (0 : Fin S1024x512.rank) ∈ dims.lhsNonContracting by decide)]
  rfl

theorem lhs_col (j : S1024x1024.Idx) (k : dims.contr.Idx) : (dims.lhsIdx j k 1).val = (k ⟨0, by decide⟩).val :=
  dims.lhsIdx_val_of_single rfl j k

theorem rhs_row (j : S1024x1024.Idx) (k : dims.contr.Idx) : (dims.rhsIdx j k 0).val = (j 1).val := by
  unfold DotDims.rhsIdx
  rw [dif_neg (show ¬(0 : Fin S1024x512.rank) ∈ dims.rhsBatch by decide),
    dif_pos (show (0 : Fin S1024x512.rank) ∈ dims.rhsNonContracting by decide)]
  rfl

theorem rhs_col (j : S1024x1024.Idx) (k : dims.contr.Idx) : (dims.rhsIdx j k 1).val = (k ⟨0, by decide⟩).val :=
  dims.rhsIdx_val_of_single rfl j k

/-- The product into a zero start, at entry `(p, q)`: the sum over the 512 contraction positions of `x (p, kk) · w (q, kk)`. -/
theorem product_apply (x w : FVec Ideal S1024x512 .bf16) (p q : Fin 1024) :
    FloatOps.matmul dims none x w (constant S1024x1024 .f32 0x00000000#32) (ix2 p q)
      = ∑ kk : Fin 512, x (ix2 p kk) * w (ix2 q kk) := by
  refine (Ideal.matmul_constant_zero_apply dims none x w (ix2 p q)).trans ?_
  rw [← Equiv.sum_comp (contrEquiv1 dims 512 rfl rfl).symm]
  refine Finset.sum_congr rfl fun k _ => ?_
  have hk := contrEquiv1_symm_val dims 512 rfl rfl k
  have el : dims.lhsIdx (ix2 p q) ((contrEquiv1 dims 512 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 512 rfl rfl).symm k) = ix2 q k := funext fun a => Fin.ext (by
    match a with
    | ⟨0, _⟩ => exact rhs_row _ _
    | ⟨1, _⟩ => exact (rhs_col _ _).trans hk)
  rw [el, er]

/-- The zero block. -/
theorem zero_apply (j : S1024x1024.Idx) : k0_pay1 (F := Ideal) j = 0 := by
  unfold k0_pay1
  simp only [shapeCast_self]
  show Ideal.ofBits .f32 0x00000000#32 = 0
  exact Ideal.ofBits_zero_f32

/-- One accumulation step. -/
theorem step_apply (x w : FVec Ideal S1024x512 .bf16) (acc : FVec Ideal S1024x1024 .f32) (p q : Fin 1024) :
    k0_pay2 (F := Ideal) x w acc (ix2 p q) = acc (ix2 p q) + ∑ kk : Fin 512, x (ix2 p kk) * w (ix2 q kk) := by
  unfold k0_pay2
  simp only [shapeCast_self]
  show acc (ix2 p q) + FloatOps.matmul dims none x w (constant S1024x1024 .f32 0x00000000#32) (ix2 p q) = _
  exact congrArg (acc (ix2 p q) + ·) (product_apply x w p q)

/-- The output store. -/
theorem emit_apply (bias : FVec Ideal S1x1024 .f32) (acc : FVec Ideal S1024x1024 .f32) (p q : Fin 1024) :
    k0_pay3 (F := Ideal) bias acc (ix2 p q)
      = acc (ix2 p q) + Ideal.ofBits .f32 0x40000000#32 * bias (ix2 (0 : Fin 1) q) := by
  unfold k0_pay3
  simp only [shapeCast_self]
  show acc (ix2 p q) + Ideal.ofBits .f32 0x40000000#32
      * broadcastTo S1024x1024 bias broadcasts_S1x1024_S1024x1024 (ix2 p q) = _
  exact congrArg (fun v => acc (ix2 p q) + Ideal.ofBits .f32 0x40000000#32 * v)
    (broadcastTo_1b_ab_apply bias broadcasts_S1x1024_S1024x1024 p q)

end Cert.KernelIdeal.Payload

end
-- ==== Proof.BlockSum.lean ====
/-
  An axis of length 4096 cut into consecutive blocks.

  * `row a p` is position `p` of block `a` when the axis is cut into four blocks of 1024;
  * `col k kk` is position `kk` of block `k` when it is cut into eight blocks of 512.

  Both are taken modulo 4096 so that they are defined for every natural block number; for a block number in range
  they are `1024 * a + p` and `512 * k + kk` (`row_val`, `col_val`).

  `sum_blocks`: summing a function over the whole axis is summing, block by block, its sums over the eight blocks of
  512. It is a statement about reindexing a finite sum, so it holds in every additive commutative monoid — in
  particular on the extended reals, with no finiteness assumption.
-/
import Mathlib.Algebra.BigOperators.Fin
import Mathlib.Algebra.BigOperators.Intervals
import Mathlib.Logic.Equiv.Fin.Basic
import Mathlib.Tactic.NormNum
import Mathlib.Tactic.Ring

open scoped BigOperators

namespace BlockSum

/-- Position `p` of block `a` of an axis of 4096 cut into blocks of 1024. -/
def row (a : ℕ) (p : Fin 1024) : Fin 4096 := ⟨(1024 * a + p.val) % 4096, Nat.mod_lt _ (by norm_num)⟩

/-- Position `kk` of block `k` of an axis of 4096 cut into blocks of 512. -/
def col (k : ℕ) (kk : Fin 512) : Fin 4096 := ⟨(512 * k + kk.val) % 4096, Nat.mod_lt _ (by norm_num)⟩

theorem row_val (a : ℕ) (ha : a < 4) (p : Fin 1024) : (row a p).val = 1024 * a + p.val := by
  have hp := p.isLt
  show (1024 * a + p.val) % 4096 = 1024 * a + p.val
  omega

theorem col_val (k : ℕ) (hk : k < 8) (kk : Fin 512) : (col k kk).val = 512 * k + kk.val := by
  have hkk := kk.isLt
  show (512 * k + kk.val) % 4096 = 512 * k + kk.val
  omega

/-- The whole axis is the disjoint union of its eight blocks of 512: a sum over it is the sum of the block sums. -/
theorem sum_blocks {M : Type*} [AddCommMonoid M] (f : Fin 4096 → M) :
    ∑ k ∈ Finset.range 8, ∑ kk : Fin 512, f (col k kk) = ∑ i : Fin 4096, f i := by
  rw [← Fin.sum_univ_eq_sum_range (fun k => ∑ kk : Fin 512, f (col k kk)) 8]
  rw [← Fintype.sum_prod_type' (f := fun (k : Fin 8) (kk : Fin 512) => f (col k.val kk))]
  refine Fintype.sum_equiv (finProdFinEquiv.trans (finCongr (by norm_num : 8 * 512 = 4096))) _ _ ?_
  rintro ⟨k, kk⟩
  refine congrArg f (Fin.ext ?_)
  have hk := k.isLt
  rw [col_val k.val hk kk]
  simp [finProdFinEquiv]
  ring

end BlockSum
-- ==== Proof.Blocks.lean ====
/-
  What the kernel's windows read, in terms of the three argument arrays.

  The grid has 4 × 4 × 8 points, numbered row-major: point `t` is output block row `t / 32`, output block column
  `(t / 8) % 4` and contraction step `t % 8`. At point `t`
    * the `x` window holds rows `1024 (t / 32) + p`, columns `512 (t % 8) + kk` of `x`;
    * the `W` window holds rows `1024 ((t / 8) % 4) + q`, columns `512 (t % 8) + kk` of `W`;
    * the bias window holds entries `1024 ((t / 8) % 4) + q` of `b`, as a 1 × 1024 row;
    * the output window is rows `1024 (t / 32) + p`, columns `1024 ((t / 8) % 4) + q` of the result.
  Before the region the program narrows `x` and `W` to a 16-bit format, which is the identity on extended reals, and
  reshapes `b` to a 1 × 4096 row, which keeps entry `c` at `(0, c)`; so the windows read the arguments themselves.
  The index maps are decided once over the 128 grid points; a block's coordinate on an axis is always
  index × block size + position in the block.
-/
import proofs.«159209_j21251498180720_2_alg».proof.Proof.Gen.KernelIdeal.Frame
import proofs.«159209_j21251498180720_2_alg».proof.Proof.BlockSum
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx BlockSum
open Idealize.ShloMosaic.StableHlo

namespace Cert.KernelIdeal.Blocks

open Cert.KernelIdeal Cert.KernelIdeal.Gen

variable (m : (ℓ : Loc nD τ sig) → Buf (Elt Ideal) ℓ)

/-! ### The arrays the region finds -/

/-- The narrowed copy of `x` is `x`. -/
theorem entry_x (c : Dev nD) : (V m c main_v0 : S4096x4096.Idx → EReal) = m ((c : Thread nD τ).loc main_arg0) := by
  dsimp only [Gen.V, Gen.hostOps0]
  after_results
  rfl

/-- The narrowed copy of `W` is `W`. -/
theorem entry_w (c : Dev nD) : (V m c main_v1 : S4096x4096.Idx → EReal) = m ((c : Thread nD τ).loc main_arg1) := by
  dsimp only [Gen.V, Gen.hostOps0]
  after_results
  rfl

/-- The bias as a 1 × 4096 row. -/
theorem entry_b (c : Dev nD) : (V m c main_v2 : S1x4096.Idx → EReal)
    = shapeCast S1x4096 (m ((c : Thread nD τ).loc main_arg2)) shapeCasts_S4096_S1x4096 := by
  dsimp only [Gen.V, Gen.hostOps0]
  after_results
  rfl

/-! ### The index maps, over the grid -/

theorem index_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

theorem index_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

theorem index_b : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)

theorem index_out : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-! ### The input blocks at a point -/

theorem x_block (c : Dev nD) (t : Fin cfg0.N) (p : Fin 1024) (kk : Fin 512) :
    (iblk m c 0 t : Vec Ideal S1024x512 .bf16) (ix2 p kk)
      = m ((c : Thread nD τ).loc main_arg0) (ix2 (row (t.val / 32) p) (col (t.val % 8) kk)) := by
  have hN : t.val < 128 := lt_of_lt_of_eq t.isLt (show cfg0.N = 128 from N_0)
  unfold iblk
  rw [View.read_apply]
  show V m c main_v0 _ = _
  rw [entry_x]
  refine congrArg _ (funext fun a => Fin.ext ?_)
  match a with
  | ⟨0, _⟩ =>
    show win0_0.index t 0 * 1024 + 1 * p.val = (row (t.val / 32) p).val
    rw [(index_x t).1, row_val _ (by omega) p]; omega
  | ⟨1, _⟩ =>
    show win0_0.index t 1 * 512 + 1 * kk.val = (col (t.val % 8) kk).val
    rw [(index_x t).2, col_val _ (by omega) kk]; omega

theorem w_block (c : Dev nD) (t : Fin cfg0.N) (q : Fin 1024) (kk : Fin 512) :
    (iblk m c 1 t : Vec Ideal S1024x512 .bf16) (ix2 q kk)
      = m ((c : Thread nD τ).loc main_arg1) (ix2 (row (t.val / 8 % 4) q) (col (t.val % 8) kk)) := by
  have hN : t.val < 128 := lt_of_lt_of_eq t.isLt (show cfg0.N = 128 from N_0)
  unfold iblk
  rw [View.read_apply]
  show V m c main_v1 _ = _
  rw [entry_w]
  refine congrArg _ (funext fun a => Fin.ext ?_)
  match a with
  | ⟨0, _⟩ =>
    show win0_1.index t 0 * 1024 + 1 * q.val = (row (t.val / 8 % 4) q).val
    rw [(index_w t).1, row_val _ (by omega) q]; omega
  | ⟨1, _⟩ =>
    show win0_1.index t 1 * 512 + 1 * kk.val = (col (t.val % 8) kk).val
    rw [(index_w t).2, col_val _ (by omega) kk]; omega

theorem b_block (c : Dev nD) (t : Fin cfg0.N) (q : Fin 1024) :
    (iblk m c 2 t : Vec Ideal S1x1024 .f32) (ix2 (0 : Fin 1) q)
      = m ((c : Thread nD τ).loc main_arg2) (ix1 (row (t.val / 8 % 4) q)) := by
  have hN : t.val < 128 := lt_of_lt_of_eq t.isLt (show cfg0.N = 128 from N_0)
  unfold iblk
  rw [View.read_apply]
  show V m c main_v2 _ = _
  rw [entry_b]
  refine Eq.trans (congrArg _ (funext fun a => Fin.ext ?_))
    (shapeCast_a_1a_apply (m ((c : Thread nD τ).loc main_arg2)) shapeCasts_S4096_S1x4096 (0 : Fin 1) (row (t.val / 8 % 4) q))
  match a with
  | ⟨0, _⟩ =>
    show win0_2.index t 0 * 1 + 1 * 0 = 0
    rw [(index_b t).1]
  | ⟨1, _⟩ =>
    show win0_2.index t 1 * 1024 + 1 * q.val = (row (t.val / 8 % 4) q).val
    rw [(index_b t).2, row_val _ (by omega) q]; omega

end Cert.KernelIdeal.Blocks

end
-- ==== Proof.Spec.lean ====
/-
  The function both programs compute, over the extended reals:

      affine x W b (r, c) = (∑ l < 4096, x (r, l) · W (c, l)) + 2 · b c,

  that is `x · Wᵀ + 2 b` with the row vector `b` added to every row. The factor `2` is kept as the float literal both
  programs spell (the same 32-bit word on both sides), so it is never evaluated.

  `partialDot x W a b k (p, q)` is the contribution of contraction block `k` (512 consecutive `l`) to entry `(p, q)` of
  output block `(a, b)` (1024 × 1024 entries). `affine_block` says that an entry of `affine`, addressed by block and
  position in the block, is the sum of its eight contributions plus the bias term: the full contraction cut into its
  eight blocks (`BlockSum.sum_blocks`). Only the reindexing of a finite sum is used, so no input need be finite.
-/
import Idealize.ShloMosaic.PureOps.Ideal
import Idealize.ShloMosaic.Lib.ValueIdx
import proofs.«159209_j21251498180720_2_alg».proof.Proof.BlockSum

noncomputable section

open scoped BigOperators
open Idealize.ShloMosaic Idealize.ShloMosaic.ValueIdx BlockSum

namespace Cert.Spec

/-- A 4096 × 4096 array of extended reals. -/
abbrev Mat : Type := (⟨2, ![4096, 4096]⟩ : Shape).Idx → EReal
/-- A vector of 4096 extended reals. -/
abbrev Vec1 : Type := (⟨1, ![4096]⟩ : Shape).Idx → EReal

/-- The float literal `2.0` as both programs spell it. -/
abbrev two : EReal := Ideal.ofBits .f32 0x40000000#32

/-- `x · Wᵀ + 2 b`, entry by entry. -/
def affine (x W : Mat) (b : Vec1) : Mat :=
  fun i => (∑ l : Fin 4096, x (ix2 (i 0) l) * W (ix2 (i 1) l)) + two * b (ix1 (i 1))

/-- Contraction block `k`'s contribution to entry `(p, q)` of output block `(a, b)`. -/
def partialDot (x W : Mat) (a b k : ℕ) (p q : Fin 1024) : EReal :=
  ∑ kk : Fin 512, x (ix2 (row a p) (col k kk)) * W (ix2 (row b q) (col k kk))

/-- An entry of `affine`, by block and position: its eight contributions, then the bias term. -/
theorem affine_block (x W : Mat) (b : Vec1) (a b' : ℕ) (p q : Fin 1024) :
    affine x W b (ix2 (row a p) (row b' q))
      = (∑ k ∈ Finset.range 8, partialDot x W a b' k p q) + two * b (ix1 (row b' q)) := by
  show (∑ l : Fin 4096, x (ix2 (row a p) l) * W (ix2 (row b' q) l)) + two * b (ix1 (row b' q)) = _
  rw [← sum_blocks (fun l => x (ix2 (row a p) l) * W (ix2 (row b' q) l))]
  rfl

end Cert.Spec

end
-- ==== Proof.Accumulate.lean ====
/-
  The accumulator after every grid point.

  Point `n` of the grid works on output block `(n / 32, (n / 8) % 4)` at contraction step `n % 8`. The claim
  (`acc_after`): after point `n` the accumulator's entry `(p, q)` is the sum of the contributions of the contraction
  blocks `0, …, n % 8` to entry `(p, q)` of that output block,

      acc_n (p, q) = ∑ k ≤ n % 8, partialDot x W (n / 32) ((n / 8) % 4) k p q.

  By induction on `n`. At a first step (`n % 8 = 0`) the accumulator is reset, so it holds `0` plus this step's
  contribution, whatever it held before; at any later step it holds what point `n - 1` left — the same output block,
  one contraction step earlier — plus this step's contribution. A step's contribution is the product of the two input
  blocks the windows hold at that point, which are the corresponding rows and columns of `x` and `W`.
-/
import proofs.«159209_j21251498180720_2_alg».proof.Proof.Pieces
import proofs.«159209_j21251498180720_2_alg».proof.Proof.Payload
import proofs.«159209_j21251498180720_2_alg».proof.Proof.Blocks
import proofs.«159209_j21251498180720_2_alg».proof.Proof.Spec

noncomputable section

open scoped BigOperators
open Idealize.ShloMosaic Idealize.ShloMosaic.TcCoe Idealize.SL.Sem Idealize.ShloMosaic.ValueIdx BlockSum

namespace Cert.KernelIdeal.Accumulate

open Cert.KernelIdeal Cert.KernelIdeal.Gen Cert.Spec

/-! ### Each case's result at an entry, over arbitrary blocks -/

/-- A first step leaves this step's product: `0 + ∑ kk, x (p, kk) · w (q, kk)`. -/
theorem first_entry (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 x1 : Vec Ideal S1024x512 .bf16) (x2 : Vec Ideal S1x1024 .f32) (p q : Fin 1024) :
    sout0_A_0 c i a3 h3 a4 h4 a5 h5 a6 h6 a7 h7 hc0 hc1 x0 x1 x2 (ix2 p q) = ∑ kk : Fin 512, x0 (ix2 p kk) * x1 (ix2 q kk) := by
  rw [Pieces.acc_first c i a3 h3 a4 h4 a5 h5 a6 h6 a7 h7 hc0 hc1 x0 x1 x2]
  refine (Payload.step_apply x0 x1 (Pieces.zeroBlock (F := Ideal)) p q).trans ?_
  rw [show (Pieces.zeroBlock (F := Ideal)) (ix2 p q) = 0 from Payload.zero_apply _, zero_add]

/-- A middle step adds this step's product to what it found. -/
theorem middle_entry (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : ¬cond0_1 i)
    (x0 x1 : Vec Ideal S1024x512 .bf16) (x2 : Vec Ideal S1x1024 .f32) (xs0 : Vec Ideal S1024x1024 .f32) (p q : Fin 1024) :
    sout0_B_0 c i a3 h3 a4 h4 a5 h5 a6 h6 a7 h7 hc0 hc1 x0 x1 x2 xs0 (ix2 p q) = xs0 (ix2 p q) + ∑ kk : Fin 512, x0 (ix2 p kk) * x1 (ix2 q kk) := by
  rw [Pieces.acc_middle c i a3 h3 a4 h4 a5 h5 a6 h6 a7 h7 hc0 hc1 x0 x1 x2 xs0]
  exact Payload.step_apply x0 x1 xs0 p q

/-- So does the last step … -/
theorem last_entry (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec Ideal S1024x512 .bf16) (x2 : Vec Ideal S1x1024 .f32) (xs0 : Vec Ideal S1024x1024 .f32) (p q : Fin 1024) :
    sout0_C_0 c i a3 h3 a4 h4 a5 h5 a6 h6 a7 h7 hc0 hc1 x0 x1 x2 xs0 (ix2 p q) = xs0 (ix2 p q) + ∑ kk : Fin 512, x0 (ix2 p kk) * x1 (ix2 q kk) := by
  rw [Pieces.acc_last c i a3 h3 a4 h4 a5 h5 a6 h6 a7 h7 hc0 hc1 x0 x1 x2 xs0]
  exact Payload.step_apply x0 x1 xs0 p q

/-- … whose output block is the accumulator it leaves, plus twice the bias row. -/
theorem out_entry (c : Dev nD) (i : grid0.Coords)
    (a3 : Memref sig .tc .vmem S1024x512 .bf16) (h3 : a3.IsWhole) (a4 : Memref sig .tc .vmem S1024x512 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec Ideal S1024x512 .bf16) (x2 : Vec Ideal S1x1024 .f32) (xs0 : Vec Ideal S1024x1024 .f32) (p q : Fin 1024) :
    out0_C_3 c i a3 h3 a4 h4 a5 h5 a6 h6 a7 h7 hc0 hc1 x0 x1 x2 xs0 (ix2 p q)
      = sout0_C_0 c i a3 h3 a4 h4 a5 h5 a6 h6 a7 h7 hc0 hc1 x0 x1 x2 xs0 (ix2 p q) + two * x2 (ix2 (0 : Fin 1) q) := by
  rw [Pieces.out_last c i a3 h3 a4 h4 a5 h5 a6 h6 a7 h7 hc0 hc1 x0 x1 x2 xs0, Pieces.acc_last c i a3 h3 a4 h4 a5 h5 a6 h6 a7 h7 hc0 hc1 x0 x1 x2 xs0]
  exact Payload.emit_apply x2 (Pieces.step x0 x1 xs0) p q

/-! ### At a grid point -/

variable (m : (ℓ : Loc nD τ sig) → Buf (Elt Ideal) ℓ)

/-- The product of the two input blocks at point `t` is contraction block `t % 8`'s contribution to output block
    `(t / 32, (t / 8) % 4)`. -/
theorem contribution (c : Dev nD) (t : Fin cfg0.N) (p q : Fin 1024) (x0 x1 : Vec Ideal S1024x512 .bf16)
    (hx0 : ∀ kk : Fin 512, x0 (ix2 p kk)
      = m ((c : Thread nD τ).loc main_arg0) (ix2 (row (t.val / 32) p) (col (t.val % 8) kk)))
    (hx1 : ∀ kk : Fin 512, x1 (ix2 q kk)
      = m ((c : Thread nD τ).loc main_arg1) (ix2 (row (t.val / 8 % 4) q) (col (t.val % 8) kk))) :
    ∑ kk : Fin 512, x0 (ix2 p kk) * x1 (ix2 q kk)
      = partialDot (m ((c : Thread nD τ).loc main_arg0)) (m ((c : Thread nD τ).loc main_arg1))
          (t.val / 32) (t.val / 8 % 4) (t.val % 8) p q :=
  Finset.sum_congr rfl fun kk _ => by rw [hx0 kk, hx1 kk]

/-- After a first step the accumulator is that step's contribution. -/
theorem first_point (c : Dev nD) (t : Fin cfg0.N) (h0 : t.val % 8 = 0) (p q : Fin 1024) :
    (outsAt0 m c t.val t.isLt).2 (ix2 p q)
      = partialDot (m ((c : Thread nD τ).loc main_arg0)) (m ((c : Thread nD τ).loc main_arg1))
          (t.val / 32) (t.val / 8 % 4) (t.val % 8) p q := by
  have h1 : ¬t.val % 8 = 7 := by omega
  rw [outsAt0_A m c t h0 h1]
  dsimp only
  refine (first_entry c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t) p q).trans ?_
  exact contribution m c t p q (iblk m c 0 t) (iblk m c 1 t) (fun kk => Blocks.x_block m c t p kk) (fun kk => Blocks.w_block m c t q kk)

/-- After a later step it is what the point before left, plus that step's contribution. -/
theorem later_point (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + partialDot (m ((c : Thread nD τ).loc main_arg0)) (m ((c : Thread nD τ).loc main_arg1))
            (t.val / 32) (t.val / 8 % 4) (t.val % 8) p q := by
  by_cases h1 : t.val % 8 = 7
  · rw [outsAt0_C m c t h0 h1]
    dsimp only
    refine (last_entry c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2 p q).trans ?_
    exact congrArg (_ + ·) (contribution m c t p q (iblk m c 0 t) (iblk m c 1 t) (fun kk => Blocks.x_block m c t p kk) (fun kk => Blocks.w_block m c t q kk))
  · rw [outsAt0_B m c t h0 h1]
    dsimp only
    refine (middle_entry c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2 p q).trans ?_
    exact congrArg (_ + ·) (contribution m c t p q (iblk m c 0 t) (iblk m c 1 t) (fun kk => Blocks.x_block m c t p kk) (fun kk => Blocks.w_block m c t q kk))

/-- THE ACCUMULATOR after point `n`: the contributions of contraction blocks `0 … n % 8` to its output block. -/
theorem acc_after (c : Dev nD) (n : ℕ) : ∀ (h : n < cfg0.N) (p q : Fin 1024),
    (outsAt0 m c n h).2 (ix2 p q)
      = ∑ k ∈ Finset.range (n % 8 + 1),
          partialDot (m ((c : Thread nD τ).loc main_arg0)) (m ((c : Thread nD τ).loc main_arg1)) (n / 32) (n / 8 % 4) k p q := by
  induction n with
  | zero =>
    intro h p q
    refine (first_point m c ⟨0, h⟩ rfl p q).trans ?_
    show partialDot _ _ (0 / 32) (0 / 8 % 4) (0 % 8) p q = _
    rw [Nat.zero_mod, Nat.zero_add, Finset.sum_range_one]
  | succ n ih =>
    intro h p q
    have hN : n + 1 < 128 := lt_of_lt_of_eq h (show cfg0.N = 128 from N_0)
    by_cases h0 : (n + 1) % 8 = 0
    · refine (first_point m c ⟨n + 1, h⟩ h0 p q).trans ?_
      show partialDot _ _ ((n + 1) / 32) ((n + 1) / 8 % 4) ((n + 1) % 8) p q = _
      rw [h0, Nat.zero_add, Finset.sum_range_one]
    · refine (later_point m c ⟨n + 1, h⟩ h0 p q).trans ?_
      show (outsAt0 m c n _).2 (ix2 p q) + partialDot _ _ ((n + 1) / 32) ((n + 1) / 8 % 4) ((n + 1) % 8) p q = _
      rw [ih _ p q]
      have e1 : (n + 1) / 32 = n / 32 := by omega
      have e2 : (n + 1) / 8 % 4 = n / 8 % 4 := by omega
      have e3 : (n + 1) % 8 = n % 8 + 1 := by omega
      rw [e1, e2, e3, Finset.sum_range_succ _ (n % 8 + 1)]

end Cert.KernelIdeal.Accumulate

end
-- ==== Proof.WholeArray.lean ====
/-
  The kernel's result array after the run is `affine x W b`.

  The output window is written back only at the last contraction step of each output block (the points `t` with
  `t % 8 = 7`). There the body stores the accumulator it has just updated, plus twice the bias row; by `acc_after` that
  accumulator holds the contributions of all eight contraction blocks, so by `affine_block` the stored block is the
  block of `affine x W b` the window names: rows `1024 (t / 32) + p`, columns `1024 ((t / 8) % 4) + q`
  (`flushed_eq`). The sixteen output blocks tile the 4096 × 4096 array — entry `(r, c)` lies in the block written at
  point `32 (r / 1024) + 8 (c / 1024) + 7` (`cover`) — so the array ends holding `affine x W b` everywhere (`final`).
-/
import proofs.«159209_j21251498180720_2_alg».proof.Proof.Accumulate
import proofs.«159209_j21251498180720_2_alg».proof.Proof.Gen.KernelIdeal.Value

noncomputable section

open scoped BigOperators
open Idealize.ShloMosaic Idealize.ShloMosaic.TcCoe Idealize.SL.Sem Idealize.ShloMosaic.ValueIdx BlockSum
open Idealize.ShloMosaic.Pipeline (Dat)

namespace Cert.KernelIdeal.WholeArray

open Cert.KernelIdeal Cert.KernelIdeal.Gen Cert.Spec

variable (m : (ℓ : Loc nD τ sig) → Buf (Elt Ideal) ℓ) (ρ : Dev nD → PrngReg)

/-- What the result array ends holding: `x · Wᵀ + 2 b` of the three arguments as launched. -/
abbrev target (c : Dev nD) : Mat :=
  affine (m ((c : Thread nD τ).loc main_arg0)) (m ((c : Thread nD τ).loc main_arg1)) (m ((c : Thread nD τ).loc main_arg2))

/-- Two functions on a 1024 × 1024 block that agree at every `(p, q)` are equal. -/
theorem ext_block {f g : S1024x1024.Idx → EReal} (h : ∀ p q : Fin 1024, f (ix2 p q) = g (ix2 p q)) : f = g :=
  funext fun j => by rw [eq_ix2 j]; exact h _ _

/-- The output window's block at point `t` sits at rows `1024 (t / 32) + p`, columns `1024 ((t / 8) % 4) + q`. -/
theorem out_emb (t : Fin cfg0.N) (p q : Fin 1024) :
    ((cfg0.win 3).blk t).view.emb (ix2 p q) = ix2 (row (t.val / 32) p) (row (t.val / 8 % 4) q) := by
  have hN : t.val < 128 := lt_of_lt_of_eq t.isLt (show cfg0.N = 128 from N_0)
  funext a
  apply Fin.ext
  match a with
  | ⟨0, _⟩ =>
    show win0_3.index t 0 * 1024 + 1 * p.val = (row (t.val / 32) p).val
    rw [(Blocks.index_out t).1, row_val _ (by omega) p]; omega
  | ⟨1, _⟩ =>
    show win0_3.index t 1 * 1024 + 1 * q.val = (row (t.val / 8 % 4) q).val
    rw [(Blocks.index_out t).2, row_val _ (by omega) q]; omega

/-- A block `v` that agrees entry by entry with `affine x W b` at the output window's rows and columns at point `t`,
    written back there, is the window's block of `affine x W b`. -/
theorem flushed_of (c : Dev nD) (t : Fin cfg0.N) (v : Vec Ideal S1024x1024 .f32)
    (hv : ∀ p q : Fin 1024, v (ix2 p q) = target m c (ix2 (row (t.val / 32) p) (row (t.val / 8 % 4) q))) :
    (cfg0.win 3).cut (grid0.coords t) v = ((cfg0.win 3).blk t).view.read (Elt Ideal) (target m c) := by
  refine ext_block fun p q => ?_
  show v (ix2 p q) = target m c (((cfg0.win 3).blk t).view.emb (ix2 p q))
  rw [out_emb t p q]
  exact hv p q

/-- WHAT A LAST STEP WRITES BACK is its block of `affine x W b`. -/
theorem flushed_eq (c : Dev nD) (t : Fin cfg0.N) (hf : (cfg0.win 3).flush t = true) :
    (dats m 0 c).flushed 3 t = ((cfg0.win 3).blk t).view.read (Elt Ideal) (target m c) := by
  have h1 : t.val % 8 = 7 := (flush0_3 t).mp hf
  have h0 : ¬t.val % 8 = 0 := by omega
  rw [Value.flushed3_C m c t h0 h1]
  refine flushed_of m c t _ fun p q => ?_
  refine (Accumulate.out_entry c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2 p q).trans ?_
  refine Eq.trans ?_ (affine_block _ _ _ (t.val / 32) (t.val / 8 % 4) p q).symm
  have e := Accumulate.acc_after m c t.val t.isLt p q
  rw [outsAt0_C m c t h0 h1] at e
  dsimp only at e
  refine congrArg₂ (fun u v : EReal => u + two * v) (e.trans ?_) (Blocks.b_block m c t q)
  rw [h1]

/-- An entry of the array is in point `t`'s output block iff each coordinate is in the block's range. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every entry is in the block some last step writes back. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  have hlt : 32 * ((i 0).val / 1024) + 8 * ((i 1).val / 1024) + 7 < cfg0.N := by rw [hN]; omega
  refine ⟨⟨32 * ((i 0).val / 1024) + 8 * ((i 1).val / 1024) + 7, hlt⟩, (flush0_3 _).mpr (by dsimp only; omega), ?_⟩
  rw [mem_blk]
  obtain ⟨e0, e1⟩ := Blocks.index_out ⟨32 * ((i 0).val / 1024) + 8 * ((i 1).val / 1024) + 7, hlt⟩
  dsimp only at e0 e1
  intro a
  match a with
  | ⟨0, _⟩ =>
    show win0_3.index ⟨_, hlt⟩ 0 * 1024 ≤ (i 0).val ∧ (i 0).val < win0_3.index ⟨_, hlt⟩ 0 * 1024 + 1024
    rw [e0]; omega
  | ⟨1, _⟩ =>
    show win0_3.index ⟨_, hlt⟩ 1 * 1024 ≤ (i 1).val ∧ (i 1).val < win0_3.index ⟨_, hlt⟩ 1 * 1024 + 1024
    rw [e1]; omega

/-- THE RESULT ARRAY after the run. -/
theorem final (c : Dev nD) : (dats m 0 c).arrAt 3 cfg0.N = target m c :=
  (dats m 0 c).arrAt_eq_of_cover 3 (target m c) (flushed_eq m c) cover

/-- The kernel's run, read: the result array at `affine` of the arguments, the arguments unchanged. -/
theorem run : θ_run defs (onTc (τ := τ) (main (F := Ideal))) ⟨m, fun _ => 0, ρ⟩ fun r => ∀ c : Dev nD,
      r.2.mem ((c : Thread nD τ).loc main_v3) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.RefValue.lean ====
/-
  The reference program's result is `affine` of its three arguments.

  The reference is a `dot_general` of `x` and `W`, both contracted along their second axis — at entry `(r, c)` the sum
  over `l` of `x (r, l) · W (c, l)` —, to which it adds `2 · b` broadcast first to a 1 × 4096 row and then down the
  4096 rows, so that entry `(r, c)` receives `2 · b c`. Read entry by entry this is the definition of `affine`.
-/
import proofs.«159209_j21251498180720_2_alg».proof.Proof.Gen.ReferenceIdeal.Read
import proofs.«159209_j21251498180720_2_alg».proof.Proof.Spec

noncomputable section

open scoped BigOperators
open Idealize.ShloMosaic Idealize.ShloMosaic.ValueIdx

namespace Cert.ReferenceIdeal.RefValue

open Cert.ReferenceIdeal Cert.ReferenceIdeal.Read

/-- The last stage of the reference, as a function of the three arguments, is `affine`. -/
theorem result_eq_affine (x0 x1 : (⟨S4096x4096, .f32⟩ : BufTy).Contents (Elt Ideal))
    (x2 : (⟨S4096, .f32⟩ : BufTy).Contents (Elt Ideal)) :
    val_main_v5 (F := Ideal) x0 x1 x2 = Cert.Spec.affine x0 x1 x2 := by
  funext i
  have el : ∀ k : Fin 4096, lidx_main_v0 i k = ix2 (i 0) k := fun k => funext fun a => by
    match a with
    | ⟨0, _⟩ => rfl
    | ⟨1, _⟩ => rfl
  have er : ∀ k : Fin 4096, ridx_main_v0 i k = ix2 (i 1) k := fun k => funext fun a => by
    match a with
    | ⟨0, _⟩ => rfl
    | ⟨1, _⟩ => rfl
  have eb : idx_main_v3 (idx_main_v4 i) = ix1 (i 1) := funext fun a => by
    match a with
    | ⟨0, _⟩ => rfl
  rw [val_main_v5_apply, val_main_v0_apply, val_main_v4_apply, val_main_v3_apply, val_main_v2_apply,
    val_main_v1_apply, val_main_cst_apply]
  simp only [el, er, eb, Ideal.addf_def, Ideal.mulf_def, Ideal.ofBits_def]
  rfl

end Cert.ReferenceIdeal.RefValue

end
-- ==== Proof.lean ====
/-
  Both programs compute `x · Wᵀ + 2 b` on 4096 × 4096 inputs: entry `(r, c)` of the result is
  `(∑ l < 4096, x (r, l) · W (c, l)) + 2 · b c` (`Cert.Spec.affine`).

  The reference does it in one contraction followed by a broadcast addition (Proof/RefValue.lean). The kernel cuts the
  result into sixteen 1024 × 1024 blocks and the contraction into eight blocks of 512: for each output block it runs
  through the eight contraction blocks, keeping a running sum in an accumulator that it resets at the first of them,
  and at the eighth it stores the accumulator plus twice the bias row as the output block. Over the extended reals
  each partial product is an exact finite sum, the changes of float format are the identity, and addition is
  associative and commutative, so after the eighth step the accumulator holds the whole contraction cut into its eight
  blocks (Proof/Accumulate.lean, by induction along the grid; Proof/BlockSum.lean for the cut), and the sixteen output
  blocks tile the result (Proof/WholeArray.lean). No step uses that the inputs are finite: only the reindexing of
  finite sums is used, never distributivity or cancellation.

  The three frame claims: both kernels' frames are their generated frame certificates; the reference has no kernel, and
  its frame is its run with the result dropped. The idealization rewrote nothing, so `preserves` has nothing to state.
-/
import proofs.«159209_j21251498180720_2_alg».proof.Defs
import proofs.«159209_j21251498180720_2_alg».proof.Proof.Gen.Kernel
import proofs.«159209_j21251498180720_2_alg».proof.Proof.Gen.Kernel.Skeleton
import proofs.«159209_j21251498180720_2_alg».proof.Proof.Gen.Kernel.Launch
import proofs.«159209_j21251498180720_2_alg».proof.Proof.Gen.Kernel.Points
import proofs.«159209_j21251498180720_2_alg».proof.Proof.Gen.Kernel.Frame
import proofs.«159209_j21251498180720_2_alg».proof.Proof.Gen.KernelIdeal
import proofs.«159209_j21251498180720_2_alg».proof.Proof.Gen.KernelIdeal.Skeleton
import proofs.«159209_j21251498180720_2_alg».proof.Proof.Gen.KernelIdeal.Launch
import proofs.«159209_j21251498180720_2_alg».proof.Proof.Gen.KernelIdeal.Points
import proofs.«159209_j21251498180720_2_alg».proof.Proof.Gen.KernelIdeal.Frame
import proofs.«159209_j21251498180720_2_alg».proof.Proof.Gen.ReferenceIdeal
import proofs.«159209_j21251498180720_2_alg».proof.Proof.Gen.Pre_finite_inputs
import proofs.«159209_j21251498180720_2_alg».proof.Proof.Gen.KernelIdeal.Value
import proofs.«159209_j21251498180720_2_alg».proof.Proof.Gen.ReferenceIdeal.Run
import proofs.«159209_j21251498180720_2_alg».proof.Proof.Gen.ReferenceIdeal.Read
import proofs.«159209_j21251498180720_2_alg».proof.Proof.WholeArray
import proofs.«159209_j21251498180720_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on `x`, `W` and `b`, the kernel's result array ends at `affine x W b` (the accumulator
    argument) and the reference's at the same function of its own arguments (one contraction and a broadcast), which
    are the kernel's. -/
theorem algebraic : Cert.algebraic_KernelIdeal_ReferenceIdeal := by
  intro m ρ m' ρ' _ hagree
  refine ⟨fun c => Cert.KernelIdeal.WholeArray.target m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
